-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S8192x1 : Shape := ⟨2, ![8192, 1]⟩
abbrev S256x8192 : Shape := ⟨2, ![256, 8192]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .local _ .vmem, ⟨0, _⟩ => ⟨S8192x1, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x8192, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  h_S256x1 : 0 < S256x1.numel
  shapeCasts_S256x1_S256x1 : S256x1.ShapeCasts S256x1
  inb_S256x8192_S256x8192_0_0 : ∀ a, (![0, 0] : Fin 2 → Nat) a + S256x8192.size a ≤ S256x8192.size a
  h_S256x8192 : 0 < S256x8192.numel
  broadcasts_S256x1_S256x8192 : S256x1.Broadcasts S256x8192
  hrank0 : 0 < grid0.rank
  k0_mult1_dvd : ∀ i : grid0.Coords, 256 ∣ (k0_mult1 i).toNat
  k0_off1_inb : ∀ i : grid0.Coords, ∀ a, (k0_off1 i) a + S256x1.size a ≤ S8192x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8192x1.size a
  hwx0_0 : ∀ i : grid0.Coords, EltTy.bits .f32 = 32 ∨ (Rect.block (s := S8192x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

abbrev win0_0 : Pipeline.Window sig grid0 :=
  Pipeline.Window.ofSpec (Memref.whole main_call0_v0) S8192x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S8192x1 : Shape := ⟨2, ![8192, 1]⟩

abbrev nBuf : Space → Nat
  | .hbm => 5
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .hbm, ⟨4, _⟩ => ⟨S8192x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowScale.lean ====
/-
  The product diag(a) · b of a vector a of 8192 entries and an 8192 × 8192 matrix b, entry by entry over the
  extended reals: entry (i, j) is a i · b (i, j), row i of b scaled by the i-th entry of a. Both programs compute
  exactly this function — one product per entry, the vector's entry on the left — so no law of arithmetic is
  needed to join them, and in particular none that would ask the entries to be finite.
-/
import Idealize.ShloMosaic.PureOps.Ideal
import Idealize.ShloMosaic.Lib.ValueIdx

noncomputable section

namespace Cert.RowScale

open Idealize.ShloMosaic Idealize.ShloMosaic.ValueIdx

/-- Entry (i, j) of diag(a) · b is a i · b (i, j). -/
def rowScale (a : FVec Ideal ⟨1, ![8192]⟩ .f32) (b : FVec Ideal ⟨2, ![8192, 8192]⟩ .f32) :
    FVec Ideal ⟨2, ![8192, 8192]⟩ .f32 :=
  fun i => a (ix1 (n := 8192) (i 0)) * b i

/-- At the entry in row p and column q. -/
theorem rowScale_apply (a : FVec Ideal ⟨1, ![8192]⟩ .f32) (b : FVec Ideal ⟨2, ![8192, 8192]⟩ .f32)
    (p q : Fin 8192) : rowScale a b (ix2 p q) = a (ix1 p) * b (ix2 p q) := rfl

end Cert.RowScale

end
-- ==== Proof.RefRowScale.lean ====
/-
  The reference program's result is diag(a) · b. It spreads the vector into a column, the column along the
  lanes, and multiplies by the matrix entry by entry: read at the entry (i, j), the two spreadings give back the
  vector's entry i, and the product is a i · b (i, j).
-/
import proofs.«126852_j25056839205361_2_alg».proof.Proof.Gen.ReferenceIdeal.Read
import proofs.«126852_j25056839205361_2_alg».proof.Proof.RowScale

noncomputable section

namespace Cert.ReferenceIdeal.RowScale

open Idealize.ShloMosaic Idealize.ShloMosaic.ValueIdx Cert.ReferenceIdeal Cert.ReferenceIdeal.Read Cert.RowScale

/-- Spreading the vector into a column and the column along the lanes reads, at (i, j), the vector at i. -/
theorem spread_idx (i : S8192x8192.Idx) : idx_main_v0 (idx_main_v1 i) = ix1 (n := 8192) (i 0) :=
  funext fun a => match a with | ⟨0, _⟩ => rfl

/-- The reference's last stage, as a function of the two arguments, is diag(a) · b. -/
theorem result_eq (a : FVec Ideal S8192 .f32) (b : FVec Ideal S8192x8192 .f32) :
    val_main_v2 (F := Ideal) a b = rowScale a b := by
  funext i
  rw [val_main_v2_apply, val_main_v1_apply, val_main_v0_apply, spread_idx]
  rfl

end Cert.ReferenceIdeal.RowScale

end
-- ==== Proof.PieceRowScale.lean ====
/-
  What one grid point leaves in the output's staging buffer. The body makes one store, and it covers the whole
  256 × 8192 block; so the buffer ends holding that store's value: the body's arithmetic applied to what its two
  loads read — the 256 entries of the resident column starting at the point's row offset, and the whole matrix
  block. (The body also loads the output buffer before storing; that value is never used.)
-/
import proofs.«126852_j25056839205361_2_alg».proof.Proof.Gen.KernelIdeal.Frame
import Idealize.ShloMosaic.Lib.Pipeline.Value
import Idealize.ShloMosaic.Lib.Tactic

set_option maxRecDepth 16384

noncomputable section

namespace Cert.KernelIdeal.Piece

open Idealize.ShloMosaic Idealize.ShloMosaic.TcCoe Idealize.SL.Sem Cert.KernelIdeal Cert.KernelIdeal.Gen

variable {F : FTy → Type} [FloatOps F]

/-- The offsets of the whole-block rectangle are zero on both axes. -/
theorem zero_offsets : (![0, 0] : Fin 2 → Nat) = fun _ => 0 := funext fun a => by fin_cases a <;> rfl

/-- The output block a point leaves: the body's arithmetic of the column's 256 entries from the point's row
    offset and of the matrix block. -/
theorem out_eq (c : Dev nD) (i : grid0.Coords) (a1 : Memref sig .tc .vmem S8192x1 .f32) (h1 : a1.IsWhole)
    (a2 : Memref sig .tc .vmem S256x8192 .f32) (h2 : a2.IsWhole) (a3 : Memref sig .tc .vmem S256x8192 .f32) (h3 : a3.IsWhole)
    (col : Vec F S8192x1 .f32) (blk : Vec F S256x8192 .f32) :
    out0_A_2 c i a1 h1 a2 h2 a3 h3 col blk
      = k0_pay1 (View.ld col (Rect.unit (s := S8192x1) (k0_off1 i) S256x1.size (k0_off1_inb i))) blk := by
  unfold out0_A_2
  rw [View.read_writes_eq_canon _ _ _ (cover0_A_2 c i a1 h1 a2 h2 a3 h3 col blk)]
  unfold kernelRun0_A
  dsimp only
  rw [View.canon_unit_zero zero_offsets]
  simp only [View.readAt_eq_ld, h1.read_unread, h2.read_unread, View.ld_unit_zero (S := S256x8192) zero_offsets]

end Cert.KernelIdeal.Piece

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«126852_j25056839205361_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.BodyRowScale.lean ====
/-
  The kernel body's arithmetic at an entry. At a grid point the body holds a column of 256 entries of the vector
  (one per row of the block) and a 256 × 8192 block of the matrix; it spreads the column along the 8192 lanes and
  multiplies entry by entry. So the stored block, at row p and lane q, is the column's entry of row p times the
  matrix block's entry (p, q).
-/
import proofs.«126852_j25056839205361_2_alg».proof.Proof.Gen.KernelIdeal.Skeleton
import proofs.«126852_j25056839205361_2_alg».proof.Proof.LibRowRead
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- The stored block at (p, q): the column's entry of row p times the matrix block's entry (p, q). -/
theorem pay_apply (col : Vec Ideal S256x1 .f32) (blk : Vec Ideal S256x8192 .f32) (p : Fin 256) (q : Fin 8192) :
    k0_pay1 (F := Ideal) col blk (ix2 p q) = col (ix2 p (0 : Fin 1)) * blk (ix2 p q) := by
  unfold k0_pay1
  show broadcastTo S256x8192 (shapeCast S256x1 col shapeCasts_S256x1_S256x1) broadcasts_S256x1_S256x8192 (ix2 p q) * blk (ix2 p q) = _
  rw [shapeCast_self, Cert.Lib.RowRead.broadcastTo_a1_ab_apply]

end Cert.KernelIdeal.Body

end
-- ==== Proof.BlocksRowScale.lean ====
/-
  From the blocks to the whole array. The output is written back one block of 256 rows per grid point, 32 points
  in all; point t writes rows 256 t … 256 t + 255, all 8192 columns. What it writes, at row p and column q of
  the block, is the resident column's entry 256 t + p times the matrix block's entry (p, q). The column the
  kernel keeps resident is the vector argument recast as an 8192 × 1 array before the kernel starts, so its entry
  256 t + p is the vector's entry 256 t + p; the matrix block at point t is rows 256 t … of the matrix argument.
  Hence block t of the output is block t of diag(a) · b, and since every row lies in exactly the block of
  row / 256, the blocks cover the array: the output array ends holding diag(a) · b.
-/
import proofs.«126852_j25056839205361_2_alg».proof.Proof.Gen.KernelIdeal.Value
import proofs.«126852_j25056839205361_2_alg».proof.Proof.PieceRowScale
import proofs.«126852_j25056839205361_2_alg».proof.Proof.BodyRowScale
import proofs.«126852_j25056839205361_2_alg».proof.Proof.RowScale
import proofs.«126852_j25056839205361_2_alg».proof.Proof.LibRowRead
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Idealize.ShloMosaic.StableHlo
open Cert.KernelIdeal Cert.KernelIdeal.Gen Cert.RowScale
open Idealize.ShloMosaic.Pipeline (Dat)

variable (m : (ℓ : Loc nD τ sig) → Buf (Elt Ideal) ℓ) (ρ : Dev nD → PrngReg)

/-! ## The resident column is the vector argument -/

/-- When the kernel starts, the 8192 × 1 array it keeps resident is the vector argument recast. -/
theorem col_eq (c : Dev nD) :
    (V m c main_call0_v0 : S8192x1.Idx → Elt Ideal .f32)
      = shapeCast S8192x1 (m ((c : Thread nD τ).loc main_arg0)) shapeCasts_S8192_S8192x1 := by
  dsimp only [Gen.V, Gen.hostOps0]
  after_results
  rfl

/-- Its entry in row r is the vector's entry r. -/
theorem col_apply (c : Dev nD) (r : Fin 8192) :
    (V m c main_call0_v0 : S8192x1.Idx → Elt Ideal .f32) (ix2 r (0 : Fin 1))
      = m ((c : Thread nD τ).loc main_arg0) (ix1 r) := by
  rw [col_eq]
  exact Cert.Lib.RowRead.shapeCast_a_a1_apply _ _ r 0

/-! ## Where each point reads and writes -/

/-- At point t: the body reads the column from row 256 t; the column's window sits at block (0, 0); the
    matrix's and the output's windows sit at block (t, 0). Decided over the 32 points. -/
theorem point_facts : ∀ t : Fin cfg0.N,
    k0_off1 (grid0.coords t) (0 : Fin 2) = 256 * t.val ∧ k0_off1 (grid0.coords t) (1 : Fin 2) = 0
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    k0_off1 (grid0.coords t) (0 : Fin 2) = 256 * t.val ∧ k0_off1 (grid0.coords t) (1 : Fin 2) = 0
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-! ## One entry of one block -/

/-- If the column holds the vector a, the body reads it from row off 0 in its only lane, and the matrix block's
    entry j is b's entry g, with g in row off 0 + (j's row): then the stored block's entry j is entry g of
    diag(a) · b. -/
theorem block_entry (a : FVec Ideal S8192 .f32) (b : FVec Ideal S8192x8192 .f32)
    (col : Vec Ideal S8192x1 .f32) (blk : Vec Ideal S256x8192 .f32)
    (off : Fin 2 → Nat) (inb : ∀ ax, off ax + S256x1.size ax ≤ S8192x1.size ax)
    (j : S256x8192.Idx) (g : S8192x8192.Idx)
    (hcol : ∀ r : Fin 8192, col (ix2 r (0 : Fin 1)) = a (ix1 r))
    (h0 : off 0 + (j 0).val = (g 0).val) (h1 : off 1 = 0)
    (hblk : blk j = b g) :
    k0_pay1 (F := Ideal) (View.ld col (Rect.unit (s := S8192x1) off S256x1.size inb)) blk j = rowScale a b g := by
  obtain ⟨p, q, rfl⟩ : ∃ (p : Fin 256) (q : Fin 8192), j = ix2 p q := ⟨j 0, j 1, eq_ix2 j⟩
  rw [Body.pay_apply, hblk]
  show col ((Rect.unit (s := S8192x1) off S256x1.size inb).idx (ix2 p (0 : Fin 1))) * b g = a (ix1 (n := 8192) (g 0)) * b g
  obtain ⟨r, hr⟩ : ∃ r : Fin 8192, r.val = (g 0).val := ⟨⟨(g 0).val, (g 0).isLt⟩, rfl⟩
  have e : (Rect.unit (s := S8192x1) off S256x1.size inb).idx (ix2 p (0 : Fin 1)) = ix2 r (0 : Fin 1) := by
    funext ax; apply Fin.ext
    match ax with
    | ⟨0, _⟩ => show off 0 + 1 * p.val = r.val; have : p.val = ((ix2 p q : S256x8192.Idx) 0).val := rfl; omega
    | ⟨1, _⟩ => show off 1 + 1 * 0 = 0; omega
  have er : (ix1 (n := 8192) (g 0) : S8192.Idx) = ix1 r :=
    funext fun ax => Fin.ext (by match ax with | ⟨0, _⟩ => exact hr.symm)
  rw [e, hcol, er]

/-! ## What a point writes back -/

/-- Point t writes back block t of diag(a) · b of the two arguments. -/
theorem flushed_eq (c : Dev nD) (t : Fin cfg0.N) :
    (dats m 0 c).flushed 2 t = ((cfg0.win 2).blk t).view.read (Elt Ideal)
      (rowScale (m ((c : Thread nD τ).loc main_arg0)) (m ((c : Thread nD τ).loc main_arg1))) := by
  rw [Value.flushed2_A]
  rw [Piece.out_eq c (grid0.coords t) (ms0_0 t) (hs0_0 t) (ms0_1 t) (hs0_1 t) (ms0_2 t) (hs0_2 t) (iblk m c 0 t) (iblk m c 1 t)]
  obtain ⟨o0, o1, i0, i1, b0, b1, w0, w1⟩ := point_facts t
  funext j
  show k0_pay1 (F := Ideal) (View.ld (iblk m c 0 t) (Rect.unit (s := S8192x1) (k0_off1 (grid0.coords t)) S256x1.size (k0_off1_inb (grid0.coords t)))) (iblk m c 1 t) j
    = rowScale (m ((c : Thread nD τ).loc main_arg0)) (m ((c : Thread nD τ).loc main_arg1)) (((cfg0.win 2).blk t).view.emb j)
  refine block_entry (m ((c : Thread nD τ).loc main_arg0)) (m ((c : Thread nD τ).loc main_arg1)) (iblk m c 0 t) (iblk m c 1 t)
    (k0_off1 (grid0.coords t)) (k0_off1_inb (grid0.coords t)) j (((cfg0.win 2).blk t).view.emb j) ?_ ?_ ?_ ?_
  · intro r
    show (V m c main_call0_v0 : S8192x1.Idx → Elt Ideal .f32) (((cfg0.win 0).blk t).view.emb (ix2 r (0 : Fin 1))) = _
    have e : ((cfg0.win 0).blk t).view.emb (ix2 r (0 : Fin 1)) = ix2 r (0 : Fin 1) := by
      funext ax; apply Fin.ext
      match ax with
      | ⟨0, _⟩ => show win0_0.index t (0 : Fin 2) * 8192 + 1 * r.val = r.val; rw [i0]; omega
      | ⟨1, _⟩ => show win0_0.index t (1 : Fin 2) * 1 + 1 * 0 = 0; rw [i1]
    rw [e]
    exact col_apply m c r
  · show k0_off1 (grid0.coords t) (0 : Fin 2) + (j 0).val = win0_2.index t (0 : Fin 2) * 256 + 1 * (j 0).val
    rw [o0, w0]; omega
  · exact o1
  · show V m c main_arg1 (((cfg0.win 1).blk t).view.emb j) = m ((c : Thread nD τ).loc main_arg1) (((cfg0.win 2).blk t).view.emb j)
    rw [V_main_arg1]
    refine congrArg _ (funext fun ax => Fin.ext ?_)
    match ax with
    | ⟨0, _⟩ => show win0_1.index t (0 : Fin 2) * 256 + 1 * (j 0).val = win0_2.index t (0 : Fin 2) * 256 + 1 * (j 0).val; rw [b0, w0]
    | ⟨1, _⟩ => show win0_1.index t (1 : Fin 2) * 8192 + 1 * (j 1).val = win0_2.index t (1 : Fin 2) * 8192 + 1 * (j 1).val; rw [b1, w1]

/-! ## The blocks cover the array -/

/-- An entry of the array is in point t's block iff, on each axis, its coordinate is in the block's range. -/
theorem mem_blk (t : Fin cfg0.N) (i : S8192x8192.Idx) :
    i ∈ ((cfg0.win 2).blk t).view.set ↔ ∀ ax : Fin 2, win0_2.index t ax * S256x8192.size ax ≤ (i ax).val
      ∧ (i ax).val < win0_2.index t ax * S256x8192.size ax + S256x8192.size ax := by
  show i ∈ ((View.whole main_v0).slice (win0_2.rect t)).set ↔ _
  rw [View.set_slice_whole, Rect.mem_set_unit]
  exact Iff.rfl

/-- Every entry of the array is in the block of the point row / 256, which writes back. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, w0, w1⟩ := point_facts t
  refine ⟨t, flush0_2 t, ?_⟩
  rw [mem_blk]
  intro ax
  match ax with
  | ⟨0, _⟩ =>
    show win0_2.index t (0 : Fin 2) * 256 ≤ (i 0).val ∧ (i 0).val < win0_2.index t (0 : Fin 2) * 256 + 256
    rw [w0, ht]; omega
  | ⟨1, _⟩ =>
    show win0_2.index t (1 : Fin 2) * 8192 ≤ (i 1).val ∧ (i 1).val < win0_2.index t (1 : Fin 2) * 8192 + 8192
    rw [w1]; omega

/-! ## The output array, and the run -/

/-- After the last point the output array holds diag(a) · b of the two arguments. -/
theorem final (c : Dev nD) :
    (dats m 0 c).arrAt 2 cfg0.N = rowScale (m ((c : Thread nD τ).loc main_arg0)) (m ((c : Thread nD τ).loc main_arg1)) :=
  (dats m 0 c).arrAt_eq_of_cover 2 _ (fun t _ => flushed_eq m c t) cover

/-- Every weakly fair execution of the idealized kernel ends, without a fault, with the result at diag(a) · b of
    the arguments and the arguments unchanged. -/
theorem run : θ_run defs (onTc (τ := τ) (main (F := Ideal))) ⟨m, fun _ => 0, ρ⟩ fun r => ∀ c : Dev nD,
      r.2.mem ((c : Thread nD τ).loc main_v0)
        = rowScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/- The kernel scales each row of an 8192 × 8192 matrix b by the matching entry of a vector a of 8192 entries:
   out (i, j) = a i · b (i, j), that is diag(a) · b. It does so 256 rows at a time over 32 grid points, keeping a
   (recast as an 8192 × 1 column) resident and reading the 256 entries it needs from the point's row offset. The
   reference spreads a along the columns and multiplies entry by entry. Over the extended reals both are the same
   single product per entry, with the vector's entry as the left factor, so they agree at every entry with no
   appeal to any law of arithmetic and no use of the finiteness of the inputs.

   The three frames are the generated frame runs (for the reference, its generated run with the result dropped);
   the idealization rewrote nothing, so that conjunct is trivial; the equivalence sets the kernel's run, whose
   output array is assembled from its 32 blocks, beside the reference's run, both posted at diag(a) · b. -/
import proofs.«126852_j25056839205361_2_alg».proof.Defs
import proofs.«126852_j25056839205361_2_alg».proof.Proof.Gen.Kernel
import proofs.«126852_j25056839205361_2_alg».proof.Proof.Gen.Kernel.Skeleton
import proofs.«126852_j25056839205361_2_alg».proof.Proof.Gen.Kernel.Launch
import proofs.«126852_j25056839205361_2_alg».proof.Proof.Gen.Kernel.Points
import proofs.«126852_j25056839205361_2_alg».proof.Proof.Gen.Kernel.Frame
import proofs.«126852_j25056839205361_2_alg».proof.Proof.Gen.KernelIdeal
import proofs.«126852_j25056839205361_2_alg».proof.Proof.Gen.KernelIdeal.Skeleton
import proofs.«126852_j25056839205361_2_alg».proof.Proof.Gen.KernelIdeal.Launch
import proofs.«126852_j25056839205361_2_alg».proof.Proof.Gen.KernelIdeal.Points
import proofs.«126852_j25056839205361_2_alg».proof.Proof.Gen.KernelIdeal.Frame
import proofs.«126852_j25056839205361_2_alg».proof.Proof.Gen.ReferenceIdeal
import proofs.«126852_j25056839205361_2_alg».proof.Proof.Gen.Pre_finite_inputs
import proofs.«126852_j25056839205361_2_alg».proof.Proof.Gen.KernelIdeal.Value
import proofs.«126852_j25056839205361_2_alg».proof.Proof.Gen.ReferenceIdeal.Run
import proofs.«126852_j25056839205361_2_alg».proof.Proof.Gen.ReferenceIdeal.Read
import proofs.«126852_j25056839205361_2_alg».proof.Proof.RowScale
import proofs.«126852_j25056839205361_2_alg».proof.Proof.RefRowScale
import proofs.«126852_j25056839205361_2_alg».proof.Proof.BlocksRowScale
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on a and b, both programs end with the result at diag(a) · b. -/
theorem algebraic : Cert.algebraic_KernelIdeal_ReferenceIdeal := by
  intro m ρ m' ρ' _ hagree
  refine ⟨fun c => Cert.RowScale.rowScale
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RowScale.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
